-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256x64 : Shape := ⟨2, ![256, 64]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_arg4 : FVec F S256x64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  main_v23

def fn {F : FTy → Type} [FloatOps F] (main_arg0 : FVec F S10000x256 .f32) (main_arg1 : FVec F S10000x10000 .f32) (main_arg2 : FVec F S256x256 .f32) (main_arg3 : FVec F S256x256 .f32) (main_arg4 : FVec F S256x64 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256x64 : Shape := ⟨2, ![256, 64]⟩
abbrev S400x10000 : Shape := ⟨2, ![400, 10000]⟩
abbrev S400x256 : Shape := ⟨2, ![400, 256]⟩
abbrev S10000x64 : Shape := ⟨2, ![10000, 64]⟩
abbrev S400x64 : Shape := ⟨2, ![400, 64]⟩
abbrev S400 : Shape := ⟨1, ![400]⟩
abbrev S400x1 : Shape := ⟨2, ![400, 1]⟩

abbrev nBuf : Space → Nat
  | .hbm => 9
  | .vmem => 20
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256x256, .f32⟩
  | .hbm, ⟨4, _⟩ => ⟨S256x64, .f32⟩
  | .hbm, ⟨5, _⟩ => ⟨S10000x256, .f32⟩
  | .hbm, ⟨6, _⟩ => ⟨S10000x256, .f32⟩
  | .hbm, ⟨7, _⟩ => ⟨S10000x64, .f32⟩
  | .hbm, ⟨8, _⟩ => ⟨S10000x64, .f32⟩
  | .local _ .vmem, ⟨0, _⟩ => ⟨S10000x256, .f32⟩
  | .local _ .vmem, ⟨1, _⟩ => ⟨S256x256, .f32⟩
  | .local _ .vmem, ⟨2, _⟩ => ⟨S10000x256, .f32⟩
  | .local _ .vmem, ⟨3, _⟩ => ⟨S400x10000, .f32⟩
  | .local _ .vmem, ⟨4, _⟩ => ⟨S400x10000, .f32⟩
  | .local _ .vmem, ⟨5, _⟩ => ⟨S10000x256, .f32⟩
  | .local _ .vmem, ⟨6, _⟩ => ⟨S256x256, .f32⟩
  | .local _ .vmem, ⟨7, _⟩ => ⟨S400x256, .f32⟩
  | .local _ .vmem, ⟨8, _⟩ => ⟨S400x256, .f32⟩
  | .local _ .vmem, ⟨9, _⟩ => ⟨S400x10000, .f32⟩
  | .local _ .vmem, ⟨10, _⟩ => ⟨S400x10000, .f32⟩
  | .local _ .vmem, ⟨11, _⟩ => ⟨S10000x256, .f32⟩
  | .local _ .vmem, ⟨12, _⟩ => ⟨S256x64, .f32⟩
  | .local _ .vmem, ⟨13, _⟩ => ⟨S400x64, .f32⟩
  | .local _ .vmem, ⟨14, _⟩ => ⟨S400x64, .f32⟩
  | .local _ .vmem, ⟨15, _⟩ => ⟨S400x10000, .f32⟩
  | .local _ .vmem, ⟨16, _⟩ => ⟨S400x10000, .f32⟩
  | .local _ .vmem, ⟨17, _⟩ => ⟨S10000x64, .f32⟩
  | .local _ .vmem, ⟨18, _⟩ => ⟨S400x64, .f32⟩
  | .local _ .vmem, ⟨19, _⟩ => ⟨S400x64, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem3_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := .none

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S10000x256_S10000x256_0_0 : ∀ a, (![0, 0] : Fin 2 → Nat) a + S10000x256.size a ≤ S10000x256.size a
  h_S10000x256 : 0 < S10000x256.numel
  inb_S256x256_S256x256_0_0 : ∀ a, (![0, 0] : Fin 2 → Nat) a + S256x256.size a ≤ S256x256.size a
  h_S256x256 : 0 < S256x256.numel
  inb_S400x10000_S400x10000_0_0 : ∀ a, (![0, 0] : Fin 2 → Nat) a + S400x10000.size a ≤ S400x10000.size a
  h_S400x10000 : 0 < S400x10000.numel
  shapeCasts_S10000x256_S10000x256 : S10000x256.ShapeCasts S10000x256
  inb_S400x256_S400x256_0_0 : ∀ a, (![0, 0] : Fin 2 → Nat) a + S400x256.size a ≤ S400x256.size a
  h_S400x256 : 0 < S400x256.numel
  inb_S256x64_S256x64_0_0 : ∀ a, (![0, 0] : Fin 2 → Nat) a + S256x64.size a ≤ S256x64.size a
  h_S256x64 : 0 < S256x64.numel
  inb_S400x64_S400x64_0_0 : ∀ a, (![0, 0] : Fin 2 → Nat) a + S400x64.size a ≤ S400x64.size a
  h_S400x64 : 0 < S400x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S400x64_S400 : S400x64.Reduces [1] S400
  shapeCasts_S400_S400x1 : S400.ShapeCasts S400x1
  broadcasts_S400x1_S400x64 : S400x1.Broadcasts S400x64
  dot_S10000x256_S256x256_S10000x256_1_0_0_1_n_n_wf : DotDims.WF S10000x256 S256x256 S10000x256 [1] [0] [0] [1] [] []
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  dot_S400x256_S256x64_S400x64_1_0_0_1_n_n_wf : DotDims.WF S400x256 S256x64 S400x64 [1] [0] [0] [1] [] []
  dot_S400x10000_S10000x64_S400x64_1_0_0_1_n_n_wf : DotDims.WF S400x10000 S10000x64 S400x64 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .f32 = 32 ∨ (Rect.block (s := S10000x256) S10000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x256.size a ≤ S10000x256.size a
  hwx1_3 : ∀ i : grid1.Coords, EltTy.bits .f32 = 32 ∨ (Rect.block (s := S10000x256) S400x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x256.size a ≤ S10000x256.size a
  hwx2_1 : ∀ i : grid2.Coords, EltTy.bits .f32 = 32 ∨ (Rect.block (s := S10000x256) S10000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x64.size a ≤ S256x64.size a
  hwx2_2 : ∀ i : grid2.Coords, EltTy.bits .f32 = 32 ∨ (Rect.block (s := S256x64) S256x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x64.size a ≤ S10000x64.size a
  hwx2_3 : ∀ i : grid2.Coords, EltTy.bits .f32 = 32 ∨ (Rect.block (s := S10000x64) S400x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S10000x64.size a
  hwx3_1 : ∀ i : grid3.Coords, EltTy.bits .f32 = 32 ∨ (Rect.block (s := S10000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x64.size a ≤ S10000x64.size a
  hwx3_2 : ∀ i : grid3.Coords, EltTy.bits .f32 = 32 ∨ (Rect.block (s := S10000x64) S400x64.size (cc3_transform_2 i) (hinb3_2 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def dot_S400x256_S256x64_S400x64_1_0_0_1_n_n : DotDims S400x256 S256x64 S400x64 where
  lhsContracting := [1]
  rhsContracting := [0]
  lhsNonContracting := [0]
  rhsNonContracting := [1]
  lhsBatch := []
  rhsBatch := []
  wf := dot_S400x256_S256x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S400x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S10000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S256x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S400x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S10000x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S400x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256x64 : Shape := ⟨2, ![256, 64]⟩
abbrev S_ : Shape := ⟨0, ![]⟩
abbrev S10000x64 : Shape := ⟨2, ![10000, 64]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256x256, .f32⟩
  | .hbm, ⟨4, _⟩ => ⟨S256x64, .f32⟩
  | .hbm, ⟨5, _⟩ => ⟨S10000x256, .f32⟩
  | .hbm, ⟨6, _⟩ => ⟨S10000x256, .f32⟩
  | .hbm, ⟨7, _⟩ => ⟨S_, .f32⟩
  | .hbm, ⟨8, _⟩ => ⟨S10000x256, .f32⟩
  | .hbm, ⟨9, _⟩ => ⟨S10000x256, .f32⟩
  | .hbm, ⟨10, _⟩ => ⟨S10000x256, .f32⟩
  | .hbm, ⟨11, _⟩ => ⟨S10000x256, .f32⟩
  | .hbm, ⟨12, _⟩ => ⟨S_, .f32⟩
  | .hbm, ⟨13, _⟩ => ⟨S10000x256, .f32⟩
  | .hbm, ⟨14, _⟩ => ⟨S10000x256, .f32⟩
  | .hbm, ⟨15, _⟩ => ⟨S10000x64, .f32⟩
  | .hbm, ⟨16, _⟩ => ⟨S10000x64, .f32⟩
  | .hbm, ⟨17, _⟩ => ⟨S_, .f32⟩
  | .hbm, ⟨18, _⟩ => ⟨S10000x64, .f32⟩
  | .hbm, ⟨19, _⟩ => ⟨S10000x64, .f32⟩
  | .hbm, ⟨20, _⟩ => ⟨S_, .f32⟩
  | .hbm, ⟨21, _⟩ => ⟨S10000, .f32⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S10000x1, .f32⟩
  | .hbm, ⟨26, _⟩ => ⟨S10000x64, .f32⟩
  | .hbm, ⟨27, _⟩ => ⟨S10000x64, .f32⟩
  | .hbm, ⟨28, _⟩ => ⟨S10000x64, .f32⟩
  | .hbm, ⟨29, _⟩ => ⟨S_, .f32⟩
  | .hbm, ⟨30, _⟩ => ⟨S10000, .f32⟩
  | .hbm, ⟨31, _⟩ => ⟨S10000x1, .f32⟩
  | .hbm, ⟨32, _⟩ => ⟨S10000x64, .f32⟩
  | .hbm, ⟨33, _⟩ => ⟨S10000x64, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_cst : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call2_cst : Ref sig .tc := ⟨.hbm, 17, rfl⟩
abbrev main_call2_v0 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]

class Facts₀ : Prop where
  bcast_S_S10000x256 : S_.BroadcastsInDim S10000x256 (![] : Fin 0 → Fin S10000x256.rank)
  bcast_S_S10000x64 : S_.BroadcastsInDim S10000x64 (![] : Fin 0 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []
  dot_S10000x256_S256x64_S10000x64_1_0_0_1_n_n_wf : DotDims.WF S10000x256 S256x64 S10000x64 [1] [0] [0] [1] [] []
  dot_S10000x10000_S10000x64_S10000x64_1_0_0_1_n_n_wf : DotDims.WF S10000x10000 S10000x64 S10000x64 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.KernelRun.lean ====
/-
  The kernel program's run with its result named: from any launch memory, every weakly fair execution of the four
  pallas_calls in sequence terminates without a fault, the five argument arrays end as launched, and the result array
  ends at what the last call's write-backs leave of it.

  The buffer contents at the four boundaries between the calls are a fold from the launch memory: each call replaces
  its output array by the fold of its grid points' write-backs and leaves every other buffer alone. The last thread
  state holds every unscoped buffer at the last fold's contents; reading it against the final memory gives the result
  array there as well as the arguments.
-/
import proofs.«172856_g53412213293593_cont_9to1_m_1001_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the four calls terminates, nothing faulting; the result array ends at the contents
    the fold through the calls gives it, and each argument array as launched. -/
theorem run_result : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Run

end
-- ==== Proof.Spec.lean ====
/-
  Three rounds of graph convolution over a dense adjacency matrix, closed by a row softmax, as ONE function of the
  five argument matrices over the extended reals.

  With X the node features, A the adjacency matrix and W₁, W₂, W₃ the weights, the network is
      softmax_rows (relu (A · S₃)),   S₃ = relu (A · S₂) · W₃,   S₂ = relu (A · S₁) · W₂,   S₁ = X · W₁.
  Every product keeps the grouping "adjacency times (features times weights)", so no law of the extended reals is
  needed to compare two programs that compute it in this grouping: entry (p, g) of each stage is the same finite sum
  of the same products. The one structural fact a program that works on a band of rows at a time needs is that row
  `p` of `relu (A · S)`, and with it row `p` of the next stage and of the softmax, reads row `p` of A only
  (`propagate_row`, `layer_row`, `readout_row`).

  Matrices are read by row and column (`Mat a b`); `mat` and `arr` pass between an array indexed by a rank-2 index
  and its matrix. The two float words that occur — zero, the relu's floor, and minus infinity, the start of the row
  maximum — stay as the values of their patterns: both programs use the same words.
-/
import Idealize.ShloMosaic.PureOps.Ideal
import Idealize.ShloMosaic.Lib.ValueIdx

noncomputable section

namespace Cert.GraphConv

open Idealize.ShloMosaic Idealize.ShloMosaic.ValueIdx

/-- An [a, b] array of extended reals read by row and column. -/
abbrev Mat (a b : ℕ) := Fin a → Fin b → EReal

/-- The matrix of an array indexed by a rank-2 index. -/
def mat {a b : ℕ} (x : (⟨2, ![a, b]⟩ : Shape).Idx → EReal) : Mat a b := fun p q => x (ix2 p q)

/-- The array of a matrix: its entry at a rank-2 index is the matrix at the index's two coordinates. -/
def arr {a b : ℕ} (f : Mat a b) : (⟨2, ![a, b]⟩ : Shape).Idx → EReal := fun i => f (i 0) (i 1)

theorem arr_ix2 {a b : ℕ} (f : Mat a b) (p : Fin a) (q : Fin b) : arr f (ix2 p q) = f p q := rfl

/-- The value of the f32 zero pattern: the floor of the relu. -/
abbrev zero32 : EReal := Ideal.ofBits .f32 0x00000000#32

/-- The value of the f32 pattern of minus infinity: where a row maximum starts. -/
abbrev negInf32 : EReal := Ideal.ofBits .f32 0xFF800000#32

/-- The matrix product: entry (p, g) is the sum over `j` of `l p j * r j g`. -/
def prod {a k b : ℕ} (l : Mat a k) (r : Mat k b) : Mat a b := fun p g => ∑ j : Fin k, l p j * r j g

/-- The relu of an extended real: its maximum with zero. -/
def rect (x : EReal) : EReal := max x zero32

/-- One propagation step: the relu of adjacency times support, `relu (A · S)`. -/
def propagate {n n' d : ℕ} (A : Mat n n') (S : Mat n' d) : Mat n d := fun p j => rect (∑ k : Fin n', A p k * S k j)

/-- One layer: propagate, then project by the next weights — `relu (A · S) · W`, the next layer's support. -/
def layer {n n' d e : ℕ} (A : Mat n n') (S : Mat n' d) (W : Mat d e) : Mat n e :=
  fun p g => ∑ j : Fin d, propagate A S p j * W j g

/-- The maximum of a row, folded from minus infinity. -/
def rowMax {b : ℕ} (h : Fin b → EReal) : EReal := (Finset.univ : Finset (Fin b)).fold max negInf32 h

/-- The softmax of a row: each entry's exponential after the row maximum is subtracted, over the sum of them. -/
def softRow {b : ℕ} (h : Fin b → EReal) (g : Fin b) : EReal :=
  Ideal.div (Ideal.exp (h g - rowMax h)) (∑ k : Fin b, Ideal.exp (h k - rowMax h))

/-- The last step: propagate, then the softmax of each row. -/
def readout {n n' d : ℕ} (A : Mat n n') (S : Mat n' d) : Mat n d := fun p g => softRow (propagate A S p) g

/-- The network: three layers' supports and the readout. -/
def net {n f h e : ℕ} (X : Mat n f) (A : Mat n n) (W1 : Mat f h) (W2 : Mat h h) (W3 : Mat h e) : Mat n e :=
  readout A (layer A (layer A (prod X W1) W2) W3)

/-- Row `r` of a propagation step reads row `r` of the adjacency matrix only. -/
theorem propagate_row {m n n' d : ℕ} (A' : Mat m n') (A : Mat n n') (S : Mat n' d) (r : Fin m) (p : Fin n)
    (h : ∀ k, A' r k = A p k) : propagate A' S r = propagate A S p :=
  funext fun j => by unfold propagate; simp only [h]

/-- So does row `r` of a layer. -/
theorem layer_row {m n n' d e : ℕ} (A' : Mat m n') (A : Mat n n') (S : Mat n' d) (W : Mat d e) (r : Fin m) (p : Fin n)
    (h : ∀ k, A' r k = A p k) : layer A' S W r = layer A S W p :=
  funext fun g => by unfold layer; rw [propagate_row A' A S r p h]

/-- And row `r` of the readout. -/
theorem readout_row {m n n' d : ℕ} (A' : Mat m n') (A : Mat n n') (S : Mat n' d) (r : Fin m) (p : Fin n)
    (h : ∀ k, A' r k = A p k) : readout A' S r = readout A S p :=
  funext fun g => by unfold readout; rw [propagate_row A' A S r p h]

end Cert.GraphConv

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.LibRowMax.lean ====
/-
  A row maximum read at an index.

  A maximum over the last axis of an [a, b] array, read on the extended reals at row `p`, is the fold of `max`, from
  the value of the accumulator's pattern, over the `b` entries of that row: the reduced index with the dropped
  coordinate put back is `(p, k)`. With the accumulator at the pattern of −∞ — the least extended real, so that a
  maximum against it is the other argument (`max_negInf_f32`) — this is the row's maximum, as a softmax subtracts it.
  The lemmas hold for every extent.
-/
import Idealize.ShloMosaic.Lib.ValueIdx
import Idealize.ShloMosaic.PureOps.Ideal.Laws

noncomputable section

namespace Cert.Lib.RowMax

open Idealize.ShloMosaic Idealize.ShloMosaic.ValueIdx

/-- Over the extended reals the maximum of an [a, b] array along its last axis, read at row `p`, is the fold of
    `max` from the accumulator's value over `k < b` of the array at `(p, k)`. -/
theorem laneMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f : Fin b → EReal => (Finset.univ : Finset (Fin b)).fold max (Ideal.ofBits φ acc) f)
      (funext fun k => congrArg v (funext fun d => Fin.ext (by
        match d with
        | ⟨0, _⟩ => rfl
        | ⟨1, _⟩ => rfl))))

/-- The f32 pattern of −∞ denotes the least extended real: a maximum against it is the other argument. -/
theorem max_negInf_f32 (y : EReal) : max (Ideal.ofBits .f32 0xFF800000#32) y = y := by
  simp [Ideal.ofBits, Ideal.ieee]

end Cert.Lib.RowMax

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.Payloads.lean ====
/-
  What each of the four kernel bodies stores, read at an entry, over the extended reals.

  Each body loads whole staging blocks, computes, and stores one block. Read at row `r` and column `g`:
  • the first body's block is the product of its two operands, `X · W₁`;
  • the second and third bodies' block is one layer, `relu (A · S) · W`, of the band of adjacency rows it holds;
  • the last body's block is the readout, the row softmax of `relu (A · S)`, of its band.
  A product into a zero accumulator is the plain finite sum; the relu is the maximum with the zero word; the row
  maximum is folded from minus infinity and the row sum is the plain sum, each spread back along its row.
-/
import proofs.«172856_g53412213293593_cont_9to1_m_1001_2_alg».proof.Proof.Gen.KernelIdeal.Skeleton
import proofs.«172856_g53412213293593_cont_9to1_m_1001_2_alg».proof.Proof.Spec
import proofs.«172856_g53412213293593_cont_9to1_m_1001_2_alg».proof.Proof.LibPlainDot
import proofs.«172856_g53412213293593_cont_9to1_m_1001_2_alg».proof.Proof.LibRowMax
import proofs.«172856_g53412213293593_cont_9to1_m_1001_2_alg».proof.Proof.LibKeepdims
import Idealize.ShloMosaic.Lib.Pipeline.Value
import Idealize.ShloMosaic.Lib.ValueIdx
import Idealize.ShloMosaic.PureOps.Ideal.Laws

noncomputable section

namespace Cert.KernelIdeal.Bodies

open Idealize.ShloMosaic Idealize.ShloMosaic.ValueIdx Cert.KernelIdeal Cert.KernelIdeal.Gen Cert.GraphConv

/-- A band's propagation step at an entry: the relu of the product of the band with the support. -/
theorem relu_prod_at {a n d : ℕ} (x0 : FVec Ideal ⟨2, ![a, n]⟩ .f32) (x1 : FVec Ideal ⟨2, ![n, d]⟩ .f32)
    (dd : DotDims ⟨2, ![a, n]⟩ ⟨2, ![n, d]⟩ ⟨2, ![a, d]⟩) (hd : dd = DotDims.plain a n d) (r : Fin a) (j : Fin d) :
    maximumf (F := Ideal) (matmul dd none x0 x1 (constant ⟨2, ![a, d]⟩ .f32 0x00000000#32))
        (broadcast ⟨2, ![a, d]⟩ (Scalar.ofBits .f32 0x00000000#32)) (ix2 r j)
      = propagate (mat x0) (mat x1) r j :=
  congrArg (fun z : EReal => max z zero32) (PlainDot.matmul_zero_apply dd hd x0 x1 r j)

/-- The first body stores the product of its operands. -/
theorem pay0_at (x0 : Vec Ideal S10000x256 .f32) (x1 : Vec Ideal S256x256 .f32) (p : Fin 10000) (g : Fin 256) :
    k0_pay1 (F := Ideal) x0 x1 (ix2 p g) = prod (mat x0) (mat x1) p g :=
  PlainDot.matmul_zero_apply dot_S10000x256_S256x256_S10000x256_1_0_0_1_n_n rfl x0 x1 p g

/-- The second body stores one layer of its band: `relu (A · S) · W` with 256 output columns. -/
theorem pay1_at (x0 : Vec Ideal S400x10000 .f32) (x1 : Vec Ideal S10000x256 .f32) (x6 : Vec Ideal S256x256 .f32)
    (r : Fin 400) (g : Fin 256) :
    k1_pay1 (F := Ideal) x0 x1 x6 (ix2 r g) = layer (mat x0) (mat x1) (mat x6) r g := by
  unfold k1_pay1
  rw [shapeCast_self]
  refine (PlainDot.matmul_zero_apply dot_S400x256_S256x256_S400x256_1_0_0_1_n_n rfl _ x6 r g).trans ?_
  refine Finset.sum_congr rfl fun j _ => ?_
  exact congrArg (fun z : EReal => z * x6 (ix2 j g))
    (relu_prod_at x0 x1 dot_S400x10000_S10000x256_S400x256_1_0_0_1_n_n rfl r j)

/-- The third body stores one layer of its band with 64 output columns. -/
theorem pay2_at (x0 : Vec Ideal S400x10000 .f32) (x1 : Vec Ideal S10000x256 .f32) (x6 : Vec Ideal S256x64 .f32)
    (r : Fin 400) (g : Fin 64) :
    k2_pay1 (F := Ideal) x0 x1 x6 (ix2 r g) = layer (mat x0) (mat x1) (mat x6) r g := by
  unfold k2_pay1
  rw [shapeCast_self]
  refine (PlainDot.matmul_zero_apply dot_S400x256_S256x64_S400x64_1_0_0_1_n_n rfl _ x6 r g).trans ?_
  refine Finset.sum_congr rfl fun j _ => ?_
  exact congrArg (fun z : EReal => z * x6 (ix2 j g))
    (relu_prod_at x0 x1 dot_S400x10000_S10000x256_S400x256_1_0_0_1_n_n rfl r j)

/-- The row maximum of a block, folded from minus infinity, set as a column and spread back along the row: every entry
    of row `r` reads that row's maximum. -/
theorem rowMax_spread_at {a b : ℕ} (h : FVec Ideal ⟨2, ![a, b]⟩ .f32)
    (hr : (⟨2, ![a, b]⟩ : Shape).Reduces [1] ⟨1, ![a]⟩) (hφ : FKind.Formats .f32)
    (hacc : (0xFF800000#32 : BitVec FTy.f32.bits) = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    broadcastTo ⟨2, ![a, b]⟩ (shapeCast ⟨2, ![a, 1]⟩ (multiReduction .maximumf [1] ⟨1, ![a]⟩ h 0xFF800000#32 hr hφ hacc) hc) hb (ix2 r k)
      = rowMax fun k => h (ix2 r k) :=
  (Lib.Keepdims.broadcastTo_a1_ab_apply _ hb r k).trans
    ((Lib.Keepdims.shapeCast_a_a1_apply _ hc r 0).trans (Lib.RowMax.laneMax_apply h _ hr hφ hacc r))

/-- The row sum of a block, set as a column and spread back along the row: every entry of row `r` reads that row's sum. -/
theorem rowSum_spread_at {a b : ℕ} (e : FVec Ideal ⟨2, ![a, b]⟩ .f32)
    (hr : (⟨2, ![a, b]⟩ : Shape).Reduces [1] ⟨1, ![a]⟩) (hφ : FKind.Formats .f32)
    (hacc : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (g : Fin b) :
    broadcastTo ⟨2, ![a, b]⟩ (shapeCast ⟨2, ![a, 1]⟩ (multiReduction .add [1] ⟨1, ![a]⟩ e 0x00000000#32 hr hφ hacc) hc) hb (ix2 r g)
      = ∑ k : Fin b, e (ix2 r k) :=
  (Lib.Keepdims.broadcastTo_a1_ab_apply _ hb r g).trans
    ((Lib.Keepdims.shapeCast_a_a1_apply _ hc r 0).trans (Lib.Keepdims.laneSum_apply e _ hr hφ hacc r))

/-- The softmax of a block's rows at an entry: the exponential of the entry less its row's maximum, over the row's sum
    of such exponentials. -/
theorem softmax_at {a b : ℕ} (h : FVec Ideal ⟨2, ![a, b]⟩ .f32)
    (hr : (⟨2, ![a, b]⟩ : Shape).Reduces [1] ⟨1, ![a]⟩) (hφ : FKind.Formats .f32)
    (hm : (0xFF800000#32 : BitVec FTy.f32.bits) = FKind.maximumf.neutral .f32 hφ)
    (hs : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (g : Fin b) :
    divf (F := Ideal)
        (exp (subf h (broadcastTo ⟨2, ![a, b]⟩ (shapeCast ⟨2, ![a, 1]⟩ (multiReduction .maximumf [1] ⟨1, ![a]⟩ h 0xFF800000#32 hr hφ hm) hc) hb)))
        (broadcastTo ⟨2, ![a, b]⟩ (shapeCast ⟨2, ![a, 1]⟩ (multiReduction .add [1] ⟨1, ![a]⟩
          (exp (subf h (broadcastTo ⟨2, ![a, b]⟩ (shapeCast ⟨2, ![a, 1]⟩ (multiReduction .maximumf [1] ⟨1, ![a]⟩ h 0xFF800000#32 hr hφ hm) hc) hb)))
          0x00000000#32 hr hφ hs) hc) hb) (ix2 r g)
      = softRow (fun k => h (ix2 r k)) g := by
  have he : ∀ k : Fin b,
      exp (F := Ideal) (subf h (broadcastTo ⟨2, ![a, b]⟩ (shapeCast ⟨2, ![a, 1]⟩ (multiReduction .maximumf [1] ⟨1, ![a]⟩ h 0xFF800000#32 hr hφ hm) hc) hb)) (ix2 r k)
        = Ideal.exp (h (ix2 r k) - rowMax fun k => h (ix2 r k)) := fun k =>
    congrArg (fun z : EReal => Ideal.exp (h (ix2 r k) - z)) (rowMax_spread_at h hr hφ hm hc hb r k)
  unfold softRow
  refine (congrArg₂ Ideal.div (he g) ((rowSum_spread_at _ hr hφ hs hc hb r g).trans ?_))
  exact Finset.sum_congr rfl fun k _ => he k

/-- The last body stores the readout of its band: the row softmax of `relu (A · S)`. -/
theorem pay3_at (x0 : Vec Ideal S400x10000 .f32) (x1 : Vec Ideal S10000x64 .f32) (r : Fin 400) (g : Fin 64) :
    k3_pay1 (F := Ideal) x0 x1 (ix2 r g) = readout (mat x0) (mat x1) r g := by
  unfold k3_pay1
  rw [shapeCast_self]
  refine (softmax_at _ reduces_S400x64_S400 (.inl rfl) rfl rfl shapeCasts_S400_S400x1 broadcasts_S400x1_S400x64 r g).trans ?_
  exact congrArg (fun f : Fin 64 → EReal => softRow f g)
    (funext fun k => relu_prod_at x0 x1 dot_S400x10000_S10000x64_S400x64_1_0_0_1_n_n rfl r k)

end Cert.KernelIdeal.Bodies

end
-- ==== Proof.First.lean ====
/-
  The first pallas_call as one function of the arrays it finds: one grid point, whole-array windows, the body storing
  the product of its two operands — the result array ends at `X · W₁`.

  With no grid every window's block is its whole array at offset zero, so the block the one point writes back is the
  whole product, and that one block covers the result.
-/
import proofs.«172856_g53412213293593_cont_9to1_m_1001_2_alg».proof.Proof.Gen.KernelIdeal.Frame
import proofs.«172856_g53412213293593_cont_9to1_m_1001_2_alg».proof.Proof.Payloads
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.First

open Cert.KernelIdeal Cert.KernelIdeal.Gen Cert.KernelIdeal.Bodies Cert.GraphConv

variable (V : (c : Dev nD) → (b : Ref sig .tc) → Buf (Elt Ideal) ((c : Thread nD τ).loc b))

theorem zero_offsets : (![0, 0] : Fin 2 → Nat) = fun _ => 0 := funext fun a => by fin_cases a <;> rfl

/-- Every window sits at block index zero on both axes. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What the body stores at entry `y` is the product of the two whole arrays at `i`, when the blocks are the whole
    arrays and `i` has `y`'s coordinates. -/
theorem stored_eq (X : S10000x256.Idx → EReal) (W : S256x256.Idx → EReal)
    (x0 : Vec Ideal S10000x256 .f32) (x1 : Vec Ideal S256x256 .f32) (y i : S10000x256.Idx)
    (h0 : x0 = X) (h1 : x1 = W) (hr : (i 0).val = (y 0).val) (hc : (i 1).val = (y 1).val) :
    k0_pay1 (F := Ideal) x0 x1 y = arr (prod (mat X) (mat W)) i := by
  subst h0 h1
  have hi : i = y := funext fun a => Fin.ext (by
    match a with
    | ⟨0, _⟩ => exact hr
    | ⟨1, _⟩ => exact hc)
  rw [hi]
  exact (congrArg (k0_pay1 (F := Ideal) x0 x1) (eq_ix2 y)).trans (pay0_at x0 x1 (y 0) (y 1))

/-- WHAT THE ONE POINT WRITES BACK is the whole product of the arrays as the region finds them. -/
theorem flushed_eq (c : Dev nD) (t : Fin cfg0.N) :
    (dat0 V c).flushed 2 t = ((cfg0.win 2).blk t).view.read (Elt Ideal)
      (arr (prod (mat (V c main_arg0)) (mat (V c main_arg2)))) := by
  show (cfg0.win 2).cut (grid0.coords t) ((dat0 V c).after 2 t) = _
  rw [after0_2]
  unfold out0_2
  rw [View.canon_unit_zero zero_offsets]
  simp only [View.ld_unit_zero (S := S10000x256) zero_offsets, View.ld_unit_zero (S := S256x256) zero_offsets]
  obtain ⟨e00, e01, e10, e11, e20, e21⟩ := index_facts t
  funext y
  refine stored_eq (V c main_arg0) (V c main_arg2) _ _ y (((cfg0.win 2).blk t).view.emb y) ?_ ?_ ?_ ?_
  · funext z
    show V c main_arg0 (((cfg0.win 0).blk t).view.emb z) = V c main_arg0 z
    refine congrArg (V c main_arg0) (funext fun a => Fin.ext ?_)
    match a with
    | ⟨0, _⟩ => show win0_0.index t (0 : Fin 2) * 10000 + 1 * (z 0).val = (z 0).val; omega
    | ⟨1, _⟩ => show win0_0.index t (1 : Fin 2) * 256 + 1 * (z 1).val = (z 1).val; omega
  · funext z
    show V c main_arg2 (((cfg0.win 1).blk t).view.emb z) = V c main_arg2 z
    refine congrArg (V c main_arg2) (funext fun a => Fin.ext ?_)
    match a with
    | ⟨0, _⟩ => show win0_1.index t (0 : Fin 2) * 256 + 1 * (z 0).val = (z 0).val; omega
    | ⟨1, _⟩ => show win0_1.index t (1 : Fin 2) * 256 + 1 * (z 1).val = (z 1).val; omega
  · show win0_2.index t (0 : Fin 2) * 10000 + 1 * (y 0).val = (y 0).val; omega
  · show win0_2.index t (1 : Fin 2) * 256 + 1 * (y 1).val = (y 1).val; omega

/-- An index of the result is in the point's block iff each coordinate is in the block's range on its axis. -/
theorem mem_blk (t : Fin cfg0.N) (i : S10000x256.Idx) :
    i ∈ ((cfg0.win 2).blk t).view.set ↔ ∀ a : Fin 2, win0_2.index t a * S10000x256.size a ≤ (i a).val
      ∧ (i a).val < win0_2.index t a * S10000x256.size a + S10000x256.size a := by
  show i ∈ ((View.whole main_v0).slice (win0_2.rect t)).set ↔ _
  rw [View.set_slice_whole, Rect.mem_set_unit]
  exact Iff.rfl

/-- The one block covers the result. -/
theorem covered (i : S10000x256.Idx) :
    ∃ t : Fin cfg0.N, (cfg0.win 2).flush t = true ∧ i ∈ ((cfg0.win 2).blk t).view.set := by
  have hi0 : (i 0).val < 10000 := (i 0).isLt
  have hi1 : (i 1).val < 256 := (i 1).isLt
  obtain ⟨-, -, -, -, e20, e21⟩ := index_facts t0_0
  refine ⟨t0_0, flush0_2 _, ?_⟩
  rw [mem_blk]
  intro a
  match a with
  | ⟨0, _⟩ =>
    show win0_2.index t0_0 (0 : Fin 2) * 10000 ≤ (i 0).val ∧ (i 0).val < win0_2.index t0_0 (0 : Fin 2) * 10000 + 10000
    rw [e20]; omega
  | ⟨1, _⟩ =>
    show win0_2.index t0_0 (1 : Fin 2) * 256 ≤ (i 1).val ∧ (i 1).val < win0_2.index t0_0 (1 : Fin 2) * 256 + 256
    rw [e21]; omega

/-- THE RESULT ARRAY when the region is left: the product of the two arrays the region found. -/
theorem final (c : Dev nD) :
    (dat0 V c).arrAt 2 cfg0.N = arr (prod (mat (V c main_arg0)) (mat (V c main_arg2))) :=
  (dat0 V c).arrAt_eq_of_cover 2 _ (fun t _ => flushed_eq V c t) covered

end Cert.KernelIdeal.First

end
-- ==== Proof.Band1.lean ====
/-
  The second pallas_call as one function of the arrays it finds: twenty-five bands of 400 adjacency rows, each stored
  as the layer `relu (A · S) · W` of its band, fill the whole [10000, 256] result with `relu (A · S) · W`.

  At grid point `t` the adjacency window holds rows `400 t … 400 t + 399` of A (all 10000 columns), the support and
  weight windows hold their whole arrays, and the output window is rows `400 t … 400 t + 399` of the result. Row `r`
  of the band's layer reads row `r` of the band only, which is row `400 t + r` of A: so what point `t` writes back
  is the band of the whole-array layer. The bands cover every row (`i / 400` is the point that covers row `i`).
-/
import proofs.«172856_g53412213293593_cont_9to1_m_1001_2_alg».proof.Proof.Gen.KernelIdeal.Frame
import proofs.«172856_g53412213293593_cont_9to1_m_1001_2_alg».proof.Proof.Payloads
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.Band1

open Cert.KernelIdeal Cert.KernelIdeal.Gen Cert.KernelIdeal.Bodies Cert.GraphConv

variable (V : (c : Dev nD) → (b : Ref sig .tc) → Buf (Elt Ideal) ((c : Thread nD τ).loc b))

theorem zero_offsets : (![0, 0] : Fin 2 → Nat) = fun _ => 0 := funext fun a => by fin_cases a <;> rfl

/-- The block index maps over the grid: the adjacency and output windows move one band per point, the support and
    weight windows stay at their whole arrays. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What the body stores at entry `y` of its block is the whole-array layer at `i`, when the band's row `y 0` is row
    `i 0` of the adjacency matrix, the other two blocks are the whole support and weights, and the columns agree. -/
theorem stored_eq (A : S10000x10000.Idx → EReal) (S : S10000x256.Idx → EReal) (W : S256x256.Idx → EReal)
    (x0 : Vec Ideal S400x10000 .f32) (x1 : Vec Ideal S10000x256 .f32) (x2 : Vec Ideal S256x256 .f32)
    (y : S400x256.Idx) (i : S10000x256.Idx)
    (h0 : ∀ k : Fin 10000, x0 (ix2 (y 0) k) = A (ix2 (i 0) k)) (h1 : x1 = S) (h2 : x2 = W) (hc : (i 1).val = (y 1).val) :
    k1_pay1 (F := Ideal) x0 x1 x2 y = arr (layer (mat A) (mat S) (mat W)) i := by
  subst h1 h2
  have hy : k1_pay1 (F := Ideal) x0 x1 x2 y = layer (mat x0) (mat x1) (mat x2) (y 0) (y 1) :=
    (congrArg (k1_pay1 (F := Ideal) x0 x1 x2) (eq_ix2 y)).trans (pay1_at x0 x1 x2 (y 0) (y 1))
  have hcol : (y 1 : Fin 256) = i 1 := Fin.ext hc.symm
  rw [hy, hcol]
  exact congrFun (layer_row (mat x0) (mat A) (mat x1) (mat x2) (y 0) (i 0) h0) (i 1)

/-- WHAT POINT `t` WRITES BACK is block `t` of the whole-array layer of the arrays as the region finds them. -/
theorem flushed_eq (c : Dev nD) (t : Fin cfg1.N) :
    (dat1 V c).flushed 3 t = ((cfg1.win 3).blk t).view.read (Elt Ideal)
      (arr (layer (mat (V c main_arg1)) (mat (V c main_v0)) (mat (V c main_arg3)))) := by
  show (cfg1.win 3).cut (grid1.coords t) ((dat1 V c).after 3 t) = _
  rw [after1_3]
  unfold out1_3
  rw [View.canon_unit_zero zero_offsets]
  simp only [View.ld_unit_zero (S := S400x10000) zero_offsets, View.ld_unit_zero (S := S10000x256) zero_offsets,
    View.ld_unit_zero (S := S256x256) zero_offsets]
  obtain ⟨e00, e01, e10, e11, e20, e21, e30, e31⟩ := index_facts t
  funext y
  refine stored_eq (V c main_arg1) (V c main_v0) (V c main_arg3) _ _ _ y (((cfg1.win 3).blk t).view.emb y) ?_ ?_ ?_ ?_
  · intro k
    show V c main_arg1 (((cfg1.win 0).blk t).view.emb (ix2 (y 0) k)) = V c main_arg1 (ix2 ((((cfg1.win 3).blk t).view.emb y) 0) k)
    refine congrArg (V c main_arg1) (funext fun a => Fin.ext ?_)
    match a with
    | ⟨0, _⟩ => show win1_0.index t (0 : Fin 2) * 400 + 1 * (y 0).val = win1_3.index t (0 : Fin 2) * 400 + 1 * (y 0).val; omega
    | ⟨1, _⟩ => show win1_0.index t (1 : Fin 2) * 10000 + 1 * k.val = k.val; omega
  · funext z
    show V c main_v0 (((cfg1.win 1).blk t).view.emb z) = V c main_v0 z
    refine congrArg (V c main_v0) (funext fun a => Fin.ext ?_)
    match a with
    | ⟨0, _⟩ => show win1_1.index t (0 : Fin 2) * 10000 + 1 * (z 0).val = (z 0).val; omega
    | ⟨1, _⟩ => show win1_1.index t (1 : Fin 2) * 256 + 1 * (z 1).val = (z 1).val; omega
  · funext z
    show V c main_arg3 (((cfg1.win 2).blk t).view.emb z) = V c main_arg3 z
    refine congrArg (V c main_arg3) (funext fun a => Fin.ext ?_)
    match a with
    | ⟨0, _⟩ => show win1_2.index t (0 : Fin 2) * 256 + 1 * (z 0).val = (z 0).val; omega
    | ⟨1, _⟩ => show win1_2.index t (1 : Fin 2) * 256 + 1 * (z 1).val = (z 1).val; omega
  · show win1_3.index t (1 : Fin 2) * 256 + 1 * (y 1).val = (y 1).val; omega

/-- An index of the result is in point `t`'s block iff each coordinate is in the block's range on its axis. -/
theorem mem_blk (t : Fin cfg1.N) (i : S10000x256.Idx) :
    i ∈ ((cfg1.win 3).blk t).view.set ↔ ∀ a : Fin 2, win1_3.index t a * S400x256.size a ≤ (i a).val
      ∧ (i a).val < win1_3.index t a * S400x256.size a + S400x256.size a := by
  show i ∈ ((View.whole main_v1).slice (win1_3.rect t)).set ↔ _
  rw [View.set_slice_whole, Rect.mem_set_unit]
  exact Iff.rfl

/-- The bands cover the result: row `i 0` lies in band `i 0 / 400`. -/
theorem covered (i : S10000x256.Idx) :
    ∃ t : Fin cfg1.N, (cfg1.win 3).flush t = true ∧ i ∈ ((cfg1.win 3).blk t).view.set := by
  have hi0 : (i 0).val < 10000 := (i 0).isLt
  have hi1 : (i 1).val < 256 := (i 1).isLt
  have hN : cfg1.N = 25 := N_1
  have ht : (i 0).val / 400 < cfg1.N := by rw [hN]; omega
  obtain ⟨-, -, -, -, -, -, e30, e31⟩ := index_facts ⟨(i 0).val / 400, ht⟩
  refine ⟨⟨(i 0).val / 400, ht⟩, flush1_3 _, ?_⟩
  rw [mem_blk]
  intro a
  match a with
  | ⟨0, _⟩ =>
    show win1_3.index ⟨(i 0).val / 400, ht⟩ (0 : Fin 2) * 400 ≤ (i 0).val ∧ (i 0).val < win1_3.index ⟨(i 0).val / 400, ht⟩ (0 : Fin 2) * 400 + 400
    rw [e30]; show (i 0).val / 400 * 400 ≤ (i 0).val ∧ (i 0).val < (i 0).val / 400 * 400 + 400; omega
  | ⟨1, _⟩ =>
    show win1_3.index ⟨(i 0).val / 400, ht⟩ (1 : Fin 2) * 256 ≤ (i 1).val ∧ (i 1).val < win1_3.index ⟨(i 0).val / 400, ht⟩ (1 : Fin 2) * 256 + 256
    rw [e31]; omega

/-- THE RESULT ARRAY when the region is left: the layer of the three arrays the region found. -/
theorem final (c : Dev nD) :
    (dat1 V c).arrAt 3 cfg1.N = arr (layer (mat (V c main_arg1)) (mat (V c main_v0)) (mat (V c main_arg3))) :=
  (dat1 V c).arrAt_eq_of_cover 3 _ (fun t _ => flushed_eq V c t) covered

end Cert.KernelIdeal.Band1

end
-- ==== Proof.Band2.lean ====
/-
  The third pallas_call as one function of the arrays it finds: twenty-five bands of 400 adjacency rows, each stored
  as the layer `relu (A · S) · W` of its band, fill the whole [10000, 64] result with `relu (A · S) · W`.

  At grid point `t` the adjacency window holds rows `400 t … 400 t + 399` of A (all 10000 columns), the support and
  weight windows hold their whole arrays, and the output window is rows `400 t … 400 t + 399` of the result. Row `r`
  of the band's layer reads row `r` of the band only, which is row `400 t + r` of A: so what point `t` writes back
  is the band of the whole-array layer. The bands cover every row (`i / 400` is the point that covers row `i`).
-/
import proofs.«172856_g53412213293593_cont_9to1_m_1001_2_alg».proof.Proof.Gen.KernelIdeal.Frame
import proofs.«172856_g53412213293593_cont_9to1_m_1001_2_alg».proof.Proof.Payloads
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.Band2

open Cert.KernelIdeal Cert.KernelIdeal.Gen Cert.KernelIdeal.Bodies Cert.GraphConv

variable (V : (c : Dev nD) → (b : Ref sig .tc) → Buf (Elt Ideal) ((c : Thread nD τ).loc b))

theorem zero_offsets : (![0, 0] : Fin 2 → Nat) = fun _ => 0 := funext fun a => by fin_cases a <;> rfl

/-- The block index maps over the grid: the adjacency and output windows move one band per point, the support and
    weight windows stay at their whole arrays. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What the body stores at entry `y` of its block is the whole-array layer at `i`, when the band's row `y 0` is row
    `i 0` of the adjacency matrix, the other two blocks are the whole support and weights, and the columns agree. -/
theorem stored_eq (A : S10000x10000.Idx → EReal) (S : S10000x256.Idx → EReal) (W : S256x64.Idx → EReal)
    (x0 : Vec Ideal S400x10000 .f32) (x1 : Vec Ideal S10000x256 .f32) (x2 : Vec Ideal S256x64 .f32)
    (y : S400x64.Idx) (i : S10000x64.Idx)
    (h0 : ∀ k : Fin 10000, x0 (ix2 (y 0) k) = A (ix2 (i 0) k)) (h1 : x1 = S) (h2 : x2 = W) (hc : (i 1).val = (y 1).val) :
    k2_pay1 (F := Ideal) x0 x1 x2 y = arr (layer (mat A) (mat S) (mat W)) i := by
  subst h1 h2
  have hy : k2_pay1 (F := Ideal) x0 x1 x2 y = layer (mat x0) (mat x1) (mat x2) (y 0) (y 1) :=
    (congrArg (k2_pay1 (F := Ideal) x0 x1 x2) (eq_ix2 y)).trans (pay2_at x0 x1 x2 (y 0) (y 1))
  have hcol : (y 1 : Fin 64) = i 1 := Fin.ext hc.symm
  rw [hy, hcol]
  exact congrFun (layer_row (mat x0) (mat A) (mat x1) (mat x2) (y 0) (i 0) h0) (i 1)

/-- WHAT POINT `t` WRITES BACK is block `t` of the whole-array layer of the arrays as the region finds them. -/
theorem flushed_eq (c : Dev nD) (t : Fin cfg2.N) :
    (dat2 V c).flushed 3 t = ((cfg2.win 3).blk t).view.read (Elt Ideal)
      (arr (layer (mat (V c main_arg1)) (mat (V c main_v1)) (mat (V c main_arg4)))) := by
  show (cfg2.win 3).cut (grid2.coords t) ((dat2 V c).after 3 t) = _
  rw [after2_3]
  unfold out2_3
  rw [View.canon_unit_zero zero_offsets]
  simp only [View.ld_unit_zero (S := S400x10000) zero_offsets, View.ld_unit_zero (S := S10000x256) zero_offsets,
    View.ld_unit_zero (S := S256x64) zero_offsets]
  obtain ⟨e00, e01, e10, e11, e20, e21, e30, e31⟩ := index_facts t
  funext y
  refine stored_eq (V c main_arg1) (V c main_v1) (V c main_arg4) _ _ _ y (((cfg2.win 3).blk t).view.emb y) ?_ ?_ ?_ ?_
  · intro k
    show V c main_arg1 (((cfg2.win 0).blk t).view.emb (ix2 (y 0) k)) = V c main_arg1 (ix2 ((((cfg2.win 3).blk t).view.emb y) 0) k)
    refine congrArg (V c main_arg1) (funext fun a => Fin.ext ?_)
    match a with
    | ⟨0, _⟩ => show win2_0.index t (0 : Fin 2) * 400 + 1 * (y 0).val = win2_3.index t (0 : Fin 2) * 400 + 1 * (y 0).val; omega
    | ⟨1, _⟩ => show win2_0.index t (1 : Fin 2) * 10000 + 1 * k.val = k.val; omega
  · funext z
    show V c main_v1 (((cfg2.win 1).blk t).view.emb z) = V c main_v1 z
    refine congrArg (V c main_v1) (funext fun a => Fin.ext ?_)
    match a with
    | ⟨0, _⟩ => show win2_1.index t (0 : Fin 2) * 10000 + 1 * (z 0).val = (z 0).val; omega
    | ⟨1, _⟩ => show win2_1.index t (1 : Fin 2) * 256 + 1 * (z 1).val = (z 1).val; omega
  · funext z
    show V c main_arg4 (((cfg2.win 2).blk t).view.emb z) = V c main_arg4 z
    refine congrArg (V c main_arg4) (funext fun a => Fin.ext ?_)
    match a with
    | ⟨0, _⟩ => show win2_2.index t (0 : Fin 2) * 256 + 1 * (z 0).val = (z 0).val; omega
    | ⟨1, _⟩ => show win2_2.index t (1 : Fin 2) * 64 + 1 * (z 1).val = (z 1).val; omega
  · show win2_3.index t (1 : Fin 2) * 64 + 1 * (y 1).val = (y 1).val; omega

/-- An index of the result is in point `t`'s block iff each coordinate is in the block's range on its axis. -/
theorem mem_blk (t : Fin cfg2.N) (i : S10000x64.Idx) :
    i ∈ ((cfg2.win 3).blk t).view.set ↔ ∀ a : Fin 2, win2_3.index t a * S400x64.size a ≤ (i a).val
      ∧ (i a).val < win2_3.index t a * S400x64.size a + S400x64.size a := by
  show i ∈ ((View.whole main_v2).slice (win2_3.rect t)).set ↔ _
  rw [View.set_slice_whole, Rect.mem_set_unit]
  exact Iff.rfl

/-- The bands cover the result: row `i 0` lies in band `i 0 / 400`. -/
theorem covered (i : S10000x64.Idx) :
    ∃ t : Fin cfg2.N, (cfg2.win 3).flush t = true ∧ i ∈ ((cfg2.win 3).blk t).view.set := by
  have hi0 : (i 0).val < 10000 := (i 0).isLt
  have hi1 : (i 1).val < 64 := (i 1).isLt
  have hN : cfg2.N = 25 := N_2
  have ht : (i 0).val / 400 < cfg2.N := by rw [hN]; omega
  obtain ⟨-, -, -, -, -, -, e30, e31⟩ := index_facts ⟨(i 0).val / 400, ht⟩
  refine ⟨⟨(i 0).val / 400, ht⟩, flush2_3 _, ?_⟩
  rw [mem_blk]
  intro a
  match a with
  | ⟨0, _⟩ =>
    show win2_3.index ⟨(i 0).val / 400, ht⟩ (0 : Fin 2) * 400 ≤ (i 0).val ∧ (i 0).val < win2_3.index ⟨(i 0).val / 400, ht⟩ (0 : Fin 2) * 400 + 400
    rw [e30]; show (i 0).val / 400 * 400 ≤ (i 0).val ∧ (i 0).val < (i 0).val / 400 * 400 + 400; omega
  | ⟨1, _⟩ =>
    show win2_3.index ⟨(i 0).val / 400, ht⟩ (1 : Fin 2) * 64 ≤ (i 1).val ∧ (i 1).val < win2_3.index ⟨(i 0).val / 400, ht⟩ (1 : Fin 2) * 64 + 64
    rw [e31]; omega

/-- THE RESULT ARRAY when the region is left: the layer of the three arrays the region found. -/
theorem final (c : Dev nD) :
    (dat2 V c).arrAt 3 cfg2.N = arr (layer (mat (V c main_arg1)) (mat (V c main_v1)) (mat (V c main_arg4))) :=
  (dat2 V c).arrAt_eq_of_cover 3 _ (fun t _ => flushed_eq V c t) covered

end Cert.KernelIdeal.Band2

end
-- ==== Proof.Band3.lean ====
/-
  The last pallas_call as one function of the arrays it finds: twenty-five bands of 400 adjacency rows, each stored as
  the readout — the row softmax of `relu (A · S)` — of its band, fill the whole [10000, 64] result with the readout.

  At grid point `t` the adjacency window holds rows `400 t … 400 t + 399` of A, the support window its whole array,
  and the output window is rows `400 t … 400 t + 399` of the result. A row of the readout reads the same row of the
  adjacency band only — the maximum and the sum of a softmax run along the row — so what point `t` writes back is the
  band of the whole-array readout, and the bands cover every row.
-/
import proofs.«172856_g53412213293593_cont_9to1_m_1001_2_alg».proof.Proof.Gen.KernelIdeal.Frame
import proofs.«172856_g53412213293593_cont_9to1_m_1001_2_alg».proof.Proof.Payloads
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.Band3

open Cert.KernelIdeal Cert.KernelIdeal.Gen Cert.KernelIdeal.Bodies Cert.GraphConv

variable (V : (c : Dev nD) → (b : Ref sig .tc) → Buf (Elt Ideal) ((c : Thread nD τ).loc b))

theorem zero_offsets : (![0, 0] : Fin 2 → Nat) = fun _ => 0 := funext fun a => by fin_cases a <;> rfl

/-- The block index maps over the grid: the adjacency and output windows move one band per point, the support window
    stays at its whole array. -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What the body stores at entry `y` of its block is the whole-array readout at `i`, when the band's row `y 0` is
    row `i 0` of the adjacency matrix, the other block is the whole support, and the columns agree. -/
theorem stored_eq (A : S10000x10000.Idx → EReal) (S : S10000x64.Idx → EReal)
    (x0 : Vec Ideal S400x10000 .f32) (x1 : Vec Ideal S10000x64 .f32)
    (y : S400x64.Idx) (i : S10000x64.Idx)
    (h0 : ∀ k : Fin 10000, x0 (ix2 (y 0) k) = A (ix2 (i 0) k)) (h1 : x1 = S) (hc : (i 1).val = (y 1).val) :
    k3_pay1 (F := Ideal) x0 x1 y = arr (readout (mat A) (mat S)) i := by
  subst h1
  have hy : k3_pay1 (F := Ideal) x0 x1 y = readout (mat x0) (mat x1) (y 0) (y 1) :=
    (congrArg (k3_pay1 (F := Ideal) x0 x1) (eq_ix2 y)).trans (pay3_at x0 x1 (y 0) (y 1))
  have hcol : (y 1 : Fin 64) = i 1 := Fin.ext hc.symm
  rw [hy, hcol]
  exact congrFun (readout_row (mat x0) (mat A) (mat x1) (y 0) (i 0) h0) (i 1)

/-- WHAT POINT `t` WRITES BACK is block `t` of the whole-array readout of the arrays as the region finds them. -/
theorem flushed_eq (c : Dev nD) (t : Fin cfg3.N) :
    (dat3 V c).flushed 2 t = ((cfg3.win 2).blk t).view.read (Elt Ideal)
      (arr (readout (mat (V c main_arg1)) (mat (V c main_v2)))) := by
  show (cfg3.win 2).cut (grid3.coords t) ((dat3 V c).after 2 t) = _
  rw [after3_2]
  unfold out3_2
  rw [View.canon_unit_zero zero_offsets]
  simp only [View.ld_unit_zero (S := S400x10000) zero_offsets, View.ld_unit_zero (S := S10000x64) zero_offsets]
  obtain ⟨e00, e01, e10, e11, e20, e21⟩ := index_facts t
  funext y
  refine stored_eq (V c main_arg1) (V c main_v2) _ _ y (((cfg3.win 2).blk t).view.emb y) ?_ ?_ ?_
  · intro k
    show V c main_arg1 (((cfg3.win 0).blk t).view.emb (ix2 (y 0) k)) = V c main_arg1 (ix2 ((((cfg3.win 2).blk t).view.emb y) 0) k)
    refine congrArg (V c main_arg1) (funext fun a => Fin.ext ?_)
    match a with
    | ⟨0, _⟩ => show win3_0.index t (0 : Fin 2) * 400 + 1 * (y 0).val = win3_2.index t (0 : Fin 2) * 400 + 1 * (y 0).val; omega
    | ⟨1, _⟩ => show win3_0.index t (1 : Fin 2) * 10000 + 1 * k.val = k.val; omega
  · funext z
    show V c main_v2 (((cfg3.win 1).blk t).view.emb z) = V c main_v2 z
    refine congrArg (V c main_v2) (funext fun a => Fin.ext ?_)
    match a with
    | ⟨0, _⟩ => show win3_1.index t (0 : Fin 2) * 10000 + 1 * (z 0).val = (z 0).val; omega
    | ⟨1, _⟩ => show win3_1.index t (1 : Fin 2) * 64 + 1 * (z 1).val = (z 1).val; omega
  · show win3_2.index t (1 : Fin 2) * 64 + 1 * (y 1).val = (y 1).val; omega

/-- An index of the result is in point `t`'s block iff each coordinate is in the block's range on its axis. -/
theorem mem_blk (t : Fin cfg3.N) (i : S10000x64.Idx) :
    i ∈ ((cfg3.win 2).blk t).view.set ↔ ∀ a : Fin 2, win3_2.index t a * S400x64.size a ≤ (i a).val
      ∧ (i a).val < win3_2.index t a * S400x64.size a + S400x64.size a := by
  show i ∈ ((View.whole main_v3).slice (win3_2.rect t)).set ↔ _
  rw [View.set_slice_whole, Rect.mem_set_unit]
  exact Iff.rfl

/-- The bands cover the result: row `i 0` lies in band `i 0 / 400`. -/
theorem covered (i : S10000x64.Idx) :
    ∃ t : Fin cfg3.N, (cfg3.win 2).flush t = true ∧ i ∈ ((cfg3.win 2).blk t).view.set := by
  have hi0 : (i 0).val < 10000 := (i 0).isLt
  have hi1 : (i 1).val < 64 := (i 1).isLt
  have hN : cfg3.N = 25 := N_3
  have ht : (i 0).val / 400 < cfg3.N := by rw [hN]; omega
  obtain ⟨-, -, -, -, e20, e21⟩ := index_facts ⟨(i 0).val / 400, ht⟩
  refine ⟨⟨(i 0).val / 400, ht⟩, flush3_2 _, ?_⟩
  rw [mem_blk]
  intro a
  match a with
  | ⟨0, _⟩ =>
    show win3_2.index ⟨(i 0).val / 400, ht⟩ (0 : Fin 2) * 400 ≤ (i 0).val ∧ (i 0).val < win3_2.index ⟨(i 0).val / 400, ht⟩ (0 : Fin 2) * 400 + 400
    rw [e20]; show (i 0).val / 400 * 400 ≤ (i 0).val ∧ (i 0).val < (i 0).val / 400 * 400 + 400; omega
  | ⟨1, _⟩ =>
    show win3_2.index ⟨(i 0).val / 400, ht⟩ (1 : Fin 2) * 64 ≤ (i 1).val ∧ (i 1).val < win3_2.index ⟨(i 0).val / 400, ht⟩ (1 : Fin 2) * 64 + 64
    rw [e21]; omega

/-- THE RESULT ARRAY when the region is left: the readout of the two arrays the region found. -/
theorem final (c : Dev nD) :
    (dat3 V c).arrAt 2 cfg3.N = arr (readout (mat (V c main_arg1)) (mat (V c main_v2))) :=
  (dat3 V c).arrAt_eq_of_cover 2 _ (fun t _ => flushed_eq V c t) covered

end Cert.KernelIdeal.Band3

end
-- ==== Proof.KernelValue.lean ====
/-
  The kernel program's result as the network of its arguments, over the extended reals.

  The four pallas_calls hand their results on through the buffers between them. Followed through the boundaries:
  the first call leaves the support `S₁ = X · W₁`; the second finds it and the launch-time adjacency matrix and
  weights and leaves `S₂ = relu (A · S₁) · W₂`; the third leaves `S₃ = relu (A · S₂) · W₃`; the last leaves the row
  softmax of `relu (A · S₃)`. No call writes an argument array, so each call reads the adjacency matrix and its
  weights as launched. The composition is the network function of the five arguments.
-/
import proofs.«172856_g53412213293593_cont_9to1_m_1001_2_alg».proof.Proof.KernelRun
import proofs.«172856_g53412213293593_cont_9to1_m_1001_2_alg».proof.Proof.First
import proofs.«172856_g53412213293593_cont_9to1_m_1001_2_alg».proof.Proof.Band1
import proofs.«172856_g53412213293593_cont_9to1_m_1001_2_alg».proof.Proof.Band2
import proofs.«172856_g53412213293593_cont_9to1_m_1001_2_alg».proof.Proof.Band3

noncomputable section

open Idealize.ShloMosaic Idealize.ShloMosaic.TcCoe Idealize.ShloMosaic.ValueIdx Idealize.SL.Sem

namespace Cert.KernelIdeal.Net

open Cert.KernelIdeal Cert.KernelIdeal.Gen Cert.GraphConv

variable (m : (ℓ : Loc nD τ sig) → Buf (Elt Ideal) ℓ) (ρ : Dev nD → PrngReg)

/-- The matrix of the array of a matrix is the matrix. -/
theorem mat_arr {a b : ℕ} (f : Mat a b) : mat (arr f) = f := rfl

/-! ## After the first call -/

theorem adj_1 (c : Dev nD) : V1 m ρ c main_arg1 = m ((c : Thread nD τ).loc main_arg1) := W1_of_ne m ρ c main_arg1 (by decide)
theorem w2_1 (c : Dev nD) : V1 m ρ c main_arg3 = m ((c : Thread nD τ).loc main_arg3) := W1_of_ne m ρ c main_arg3 (by decide)
theorem w3_1 (c : Dev nD) : V1 m ρ c main_arg4 = m ((c : Thread nD τ).loc main_arg4) := W1_of_ne m ρ c main_arg4 (by decide)

/-- The first support: features times the first weights. -/
theorem support_1 (c : Dev nD) :
    V1 m ρ c main_v0 = arr (prod (mat (m ((c : Thread nD τ).loc main_arg0))) (mat (m ((c : Thread nD τ).loc main_arg2)))) :=
  (W1_arr m ρ c 2).trans (First.final (V0 m ρ) c)

/-! ## After the second call -/

theorem adj_2 (c : Dev nD) : V2 m ρ c main_arg1 = m ((c : Thread nD τ).loc main_arg1) :=
  ((W2_arr m ρ c 0).trans (((dat1 (V1 m ρ) c).arrAt_in 0 rfl _).trans (A_eq1 (V1 m ρ) c 0))).trans (adj_1 m ρ c)
theorem w3_2 (c : Dev nD) : V2 m ρ c main_arg4 = m ((c : Thread nD τ).loc main_arg4) :=
  (W2_of_ne m ρ c main_arg4 (by decide)).trans (w3_1 m ρ c)

/-- The second support: one layer over the first. -/
theorem support_2 (c : Dev nD) :
    V2 m ρ c main_v1 = arr (layer (mat (m ((c : Thread nD τ).loc main_arg1)))
      (prod (mat (m ((c : Thread nD τ).loc main_arg0))) (mat (m ((c : Thread nD τ).loc main_arg2))))
      (mat (m ((c : Thread nD τ).loc main_arg3)))) := by
  refine (W2_arr m ρ c 3).trans ((Band1.final (V1 m ρ) c).trans ?_)
  rw [adj_1 m ρ c, support_1 m ρ c, w2_1 m ρ c, mat_arr]

/-! ## After the third call -/

theorem adj_3 (c : Dev nD) : V3 m ρ c main_arg1 = m ((c : Thread nD τ).loc main_arg1) :=
  ((W3_arr m ρ c 0).trans (((dat2 (V2 m ρ) c).arrAt_in 0 rfl _).trans (A_eq2 (V2 m ρ) c 0))).trans (adj_2 m ρ c)

/-- The third support: one layer over the second. -/
theorem support_3 (c : Dev nD) :
    V3 m ρ c main_v2 = arr (layer (mat (m ((c : Thread nD τ).loc main_arg1)))
      (layer (mat (m ((c : Thread nD τ).loc main_arg1)))
        (prod (mat (m ((c : Thread nD τ).loc main_arg0))) (mat (m ((c : Thread nD τ).loc main_arg2))))
        (mat (m ((c : Thread nD τ).loc main_arg3))))
      (mat (m ((c : Thread nD τ).loc main_arg4)))) := by
  refine (W3_arr m ρ c 3).trans ((Band2.final (V2 m ρ) c).trans ?_)
  rw [adj_2 m ρ c, support_2 m ρ c, w3_2 m ρ c, mat_arr]

/-! ## After the last call -/

/-- The result array after the run is the network of the five argument arrays as launched. -/
theorem result_eq (c : Dev nD) :
    W4 m ρ c (Proc.devRef .tc main_v3) = arr (net (mat (m ((c : Thread nD τ).loc main_arg0))) (mat (m ((c : Thread nD τ).loc main_arg1)))
      (mat (m ((c : Thread nD τ).loc main_arg2))) (mat (m ((c : Thread nD τ).loc main_arg3))) (mat (m ((c : Thread nD τ).loc main_arg4)))) := by
  refine (W4_arr m ρ c 2).trans ((Band3.final (V3 m ρ) c).trans ?_)
  rw [adj_3 m ρ c, support_3 m ρ c, mat_arr]
  rfl

/-- Every weakly fair execution of the kernel program terminates, nothing faulting, with the result array at the network
    of the arguments and the arguments as launched. -/
theorem run : θ_run defs (onTc (τ := τ) (main (F := Ideal))) ⟨m, fun _ => 0, ρ⟩ (fun r => ∀ c : Dev nD,
      r.2.mem ((c.tc : Thread nD τ).loc main_v3) = arr (net (mat (m ((c : Thread nD τ).loc main_arg0))) (mat (m ((c : Thread nD τ).loc main_arg1)))
        (mat (m ((c : Thread nD τ).loc main_arg2))) (mat (m ((c : Thread nD τ).loc main_arg3))) (mat (m ((c : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (Run.run_result m ρ)

end Cert.KernelIdeal.Net

end
-- ==== Proof.LibAxisFolds.lean ====
/-
  Sums and maxima along one axis, and the layouts of a pairwise difference, read at an index.

  A pairwise operation between the rows of two matrices is written by spreading each over a third axis: the [a, c] matrix
  viewed as [a, 1, c] and repeated along the middle axis, the [b, c] matrix viewed as [1, b, c] and repeated along the
  first, both [a, b, c]; a reduction over the last axis then leaves one number per pair. The lemmas here read each of
  those steps at an index given by coordinates, for every extent:
  • `shapeCast_ab_a1b_apply`: [a, c] viewed as [a, 1, c] reads, at `(p, u, k)`, the matrix at `(p, k)`;
  • `broadcastTo_a1c_abc_apply`: [a, 1, c] repeated to [a, b, c] reads, at `(p, q, k)`, the operand at `(p, 0, k)`;
  • `broadcastTo_1bc_abc_apply`: [1, b, c] repeated to [a, b, c] reads, at `(p, q, k)`, the operand at `(0, q, k)`;
  • `lastSum3_apply`: over the extended reals the sum of an [a, b, c] array along its last axis reads, at `(p, q)`,
    `∑ k < c` of the array at `(p, q, k)`.
  And for a matrix [a, b] reduced along either axis, over the extended reals:
  • `firstSum_apply`: the sum along the first axis reads, at `q`, `∑ k < a` of the matrix at `(k, q)`;
  • `lastMax_apply` / `firstMax_apply`: the maximum along the last (first) axis is the fold of `max`, from the value of
    the accumulator's word, over the entries of the row (column);
  • `hostLastMax_apply` / `hostFirstMax_apply`: the same for a host reduction with a maximum body, from its initial value.
-/
import Idealize.ShloMosaic.Lib.Pipeline.Value
import Idealize.ShloMosaic.Lib.ValueIdx
import Idealize.ShloMosaic.PureOps.Ideal.Laws

noncomputable section

namespace Cert.Lib.AxisFolds

open Idealize.ShloMosaic Idealize.ShloMosaic.ValueIdx

variable {α : Type}

/-- A matrix [a, c] viewed as [a, 1, c]: entry `(p, u, k)` is entry `(p, k)` of the matrix (the row-major positions
    `(p · 1 + 0) · c + k` and `p · c + k` agree). -/
theorem shapeCast_ab_a1b_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- [a, 1, c] repeated along its middle axis: entry `(p, q, k)` is the operand's entry `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- [1, b, c] repeated along its first axis: entry `(p, q, k)` is the operand's entry `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- Over the extended reals the sum of an [a, b, c] array along its last axis, read at `(p, q)`, is `∑ k < c` of the array
    at `(p, q, k)`. -/
theorem lastSum3_apply {a b c : ℕ} {φ : FTy} (v : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ v acc h hφ hacc (ix2 p q) = ∑ k : Fin c, v (ix3 p q k) :=
  (Ideal.multiReduction_add_single v acc h hφ hacc (ix2 p q)).trans
    (Finset.sum_congr rfl fun k _ => congrArg v (funext fun d => Fin.ext (by
      match d with
      | ⟨0, _⟩ => rfl
      | ⟨1, _⟩ => rfl
      | ⟨2, _⟩ => rfl)))

/-- Over the extended reals the sum of an [a, b] matrix along its first axis, read at column `q`, is `∑ k < a` of the
    matrix at `(k, q)`. -/
theorem firstSum_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ v acc h hφ hacc (ix1 q) = ∑ k : Fin a, v (ix2 k q) :=
  (Ideal.multiReduction_add_single v acc h hφ hacc (ix1 q)).trans
    (Finset.sum_congr rfl fun k _ => congrArg v (funext fun d => Fin.ext (by
      match d with
      | ⟨0, _⟩ => rfl
      | ⟨1, _⟩ => rfl)))

/-- Over the extended reals the maximum of an [a, b] matrix along its last axis, read at row `p`, is the fold of `max`,
    from the value of the accumulator's word, over the entries `(p, k)` of the row. -/
theorem lastMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) fun k => v (ix2 p k) :=
  (Ideal.multiReduction_maximumf_single v acc h hφ hacc (ix1 p)).trans
    (congrArg (fun f => (Finset.univ : Finset (Fin b)).fold max (Ideal.ofBits φ acc) f) (funext fun k =>
      congrArg v (funext fun d => Fin.ext (by
        match d with
        | ⟨0, _⟩ => rfl
        | ⟨1, _⟩ => rfl))))

/-- The same along the first axis: at column `q`, the fold of `max` over the entries `(k, q)` of the column. -/
theorem firstMax_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (q : Fin b) :
    multiReduction .maximumf [0] ⟨1, ![b]⟩ v acc h hφ hacc (ix1 q)
      = (Finset.univ : Finset (Fin a)).fold max (Ideal.ofBits φ acc) fun k => v (ix2 k q) :=
  (Ideal.multiReduction_maximumf_single v acc h hφ hacc (ix1 q)).trans
    (congrArg (fun f => (Finset.univ : Finset (Fin a)).fold max (Ideal.ofBits φ acc) f) (funext fun k =>
      congrArg v (funext fun d => Fin.ext (by
        match d with
        | ⟨0, _⟩ => rfl
        | ⟨1, _⟩ => rfl))))

/-- A host reduction with a maximum body along the last axis of an [a, b] matrix, over the extended reals: at row `p` the
    fold of `max`, from the initial value, over the entries `(p, k)` of the row. -/
theorem hostLastMax_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) fun k => x (ix2 p k) :=
  (Host.reduce_eq_fold_single (FloatOps.maximumf (F := Ideal) (φ := φ)) x init h' h hu (ix1 p)).trans
    (congrArg (fun f => (Finset.univ : Finset (Fin b)).fold max (init (Shape.Idx.first hu)) f) (funext fun k =>
      congrArg x (funext fun d => Fin.ext (by
        match d with
        | ⟨0, _⟩ => rfl
        | ⟨1, _⟩ => rfl))))

/-- The same along the first axis: at column `q`, the fold of `max`, from the initial value, over the column's entries. -/
theorem hostFirstMax_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) :=
  (Host.reduce_eq_fold_single (FloatOps.maximumf (F := Ideal) (φ := φ)) x init h' h hu (ix1 q)).trans
    (congrArg (fun f => (Finset.univ : Finset (Fin a)).fold max (init (Shape.Idx.first hu)) f) (funext fun k =>
      congrArg x (funext fun d => Fin.ext (by
        match d with
        | ⟨0, _⟩ => rfl
        | ⟨1, _⟩ => rfl))))

end Cert.Lib.AxisFolds

end
-- ==== Proof.RefNet.lean ====
/-
  The reference program, stage by stage, is the graph-convolution network of the specification.

  The reference computes, from the node features X, the adjacency matrix A and the weights W₁, W₂, W₃, the supports
      S₁ = X · W₁,   S₂ = relu (A · S₁) · W₂,   S₃ = relu (A · S₂) · W₃,
  then h = relu (A · S₃), and finally divides the exponential of each entry of h, after its row's maximum has been
  subtracted, by the sum of those exponentials over the row. Each stage is read here at a row p and a column g:
  a product is the finite sum over the contracted position, the relu is the maximum with the value of the zero word,
  the row maximum is the fold of the maximum from the value of the minus-infinity word (a further maximum against that
  value changes nothing, it being the least extended real), the row sum starts from the value of the zero word, which
  is 0, and the two repetitions of a per-row number along the row read that number back. Put together, entry (p, g)
  of the last stage is entry (p, g) of the specification's network on the five argument matrices.
-/
import proofs.«172856_g53412213293593_cont_9to1_m_1001_2_alg».proof.Proof.Gen.ReferenceIdeal.Read
import proofs.«172856_g53412213293593_cont_9to1_m_1001_2_alg».proof.Proof.Spec
import proofs.«172856_g53412213293593_cont_9to1_m_1001_2_alg».proof.Proof.LibPlainDot
import proofs.«172856_g53412213293593_cont_9to1_m_1001_2_alg».proof.Proof.LibAxisFolds
import proofs.«172856_g53412213293593_cont_9to1_m_1001_2_alg».proof.Proof.LibRowMax

noncomputable section

namespace Cert.ReferenceIdeal.RefNet

open Cert.ReferenceIdeal Cert.ReferenceIdeal.Read Cert.GraphConv Cert.PlainDot Cert.Lib.AxisFolds Cert.Lib.RowMax
open Idealize.ShloMosaic Idealize.ShloMosaic.ValueIdx

/-- The node features, an array [10000, 256] of extended reals. -/
abbrev Feat := (⟨S10000x256, .f32⟩ : BufTy).Contents (Elt Ideal)
/-- The adjacency matrix, an array [10000, 10000]. -/
abbrev Adj := (⟨S10000x10000, .f32⟩ : BufTy).Contents (Elt Ideal)
/-- A square weight matrix, an array [256, 256]. -/
abbrev Wsq := (⟨S256x256, .f32⟩ : BufTy).Contents (Elt Ideal)
/-- The last weight matrix, an array [256, 64]. -/
abbrev Wout := (⟨S256x64, .f32⟩ : BufTy).Contents (Elt Ideal)

section Stages

variable (x0 : Feat) (x1 : Adj) (x2 x3 : Wsq) (x4 : Wout)

/-- The first support is the product of the features and the first weights. -/
theorem support1 : mat (val_main_v0 (F := Ideal) x0 x2) = prod (mat x0) (mat x2) :=
  funext fun p => funext fun g => hostDot_apply dot_S10000x256_S256x256_S10000x256_1_0_0_1_n_n rfl x0 x2 p g

/-- The floor of the first relu, read at any index, is the value of the zero word. -/
theorem floor0 (i : S10000x256.Idx) : val_main_call0_v0 (F := Ideal) i = zero32 := by
  rw [val_main_call0_v0_apply, val_main_call0_cst_apply]; rfl

/-- The floor of the second relu is the value of the zero word. -/
theorem floor1 (i : S10000x256.Idx) : val_main_call1_v0 (F := Ideal) i = zero32 := by
  rw [val_main_call1_v0_apply, val_main_call1_cst_apply]; rfl

/-- The floor of the third relu is the value of the zero word. -/
theorem floor2 (i : S10000x64.Idx) : val_main_call2_v0 (F := Ideal) i = zero32 := by
  rw [val_main_call2_v0_apply, val_main_call2_cst_apply]; rfl

/-- The first relu stage is the propagation of the first support. -/
theorem hidden1 : mat (val_main_v2 (F := Ideal) x0 x1 x2) = propagate (mat x1) (mat (val_main_v0 (F := Ideal) x0 x2)) :=
  funext fun p => funext fun j => by
    show max (val_main_v1 (F := Ideal) x0 x1 x2 (ix2 p j)) (val_main_call0_v0 (F := Ideal) (ix2 p j)) = _
    rw [floor0]
    unfold val_main_v1
    rw [hostDot_apply dot_S10000x10000_S10000x256_S10000x256_1_0_0_1_n_n rfl]
    rfl

/-- The second support is the first layer applied to the first support and the second weights. -/
theorem support2 : mat (val_main_v3 (F := Ideal) x0 x1 x2 x3)
    = layer (mat x1) (mat (val_main_v0 (F := Ideal) x0 x2)) (mat x3) :=
  funext fun p => funext fun g => by
    unfold val_main_v3
    show Host.dotGeneral (F := Ideal) _ none _ _ (ix2 p g) = _
    rw [hostDot_apply dot_S10000x256_S256x256_S10000x256_1_0_0_1_n_n rfl]
    show ∑ k : Fin 256, mat (val_main_v2 (F := Ideal) x0 x1 x2) p k * mat x3 k g = _
    rw [hidden1]
    rfl

/-- The second relu stage is the propagation of the second support. -/
theorem hidden2 : mat (val_main_v5 (F := Ideal) x0 x1 x2 x3)
    = propagate (mat x1) (mat (val_main_v3 (F := Ideal) x0 x1 x2 x3)) :=
  funext fun p => funext fun j => by
    show max (val_main_v4 (F := Ideal) x0 x1 x2 x3 (ix2 p j)) (val_main_call1_v0 (F := Ideal) (ix2 p j)) = _
    rw [floor1]
    unfold val_main_v4
    rw [hostDot_apply dot_S10000x10000_S10000x256_S10000x256_1_0_0_1_n_n rfl]
    rfl

/-- The third support is the second layer applied to the second support and the third weights. -/
theorem support3 : mat (val_main_v6 (F := Ideal) x0 x1 x2 x3 x4)
    = layer (mat x1) (mat (val_main_v3 (F := Ideal) x0 x1 x2 x3)) (mat x4) :=
  funext fun p => funext fun g => by
    unfold val_main_v6
    show Host.dotGeneral (F := Ideal) _ none _ _ (ix2 p g) = _
    rw [hostDot_apply dot_S10000x256_S256x64_S10000x64_1_0_0_1_n_n rfl]
    show ∑ k : Fin 256, mat (val_main_v5 (F := Ideal) x0 x1 x2 x3) p k * mat x4 k g = _
    rw [hidden2]
    rfl

/-- The third relu stage is the propagation of the third support. -/
theorem hidden3 : mat (val_main_v8 (F := Ideal) x0 x1 x2 x3 x4)
    = propagate (mat x1) (mat (val_main_v6 (F := Ideal) x0 x1 x2 x3 x4)) :=
  funext fun p => funext fun j => by
    show max (val_main_v7 (F := Ideal) x0 x1 x2 x3 x4 (ix2 p j)) (val_main_call2_v0 (F := Ideal) (ix2 p j)) = _
    rw [floor2]
    unfold val_main_v7
    rw [hostDot_apply dot_S10000x10000_S10000x64_S10000x64_1_0_0_1_n_n rfl]
    rfl

/-- The third support in terms of the arguments alone: two layers over the first product. -/
theorem support3_eq : mat (val_main_v6 (F := Ideal) x0 x1 x2 x3 x4)
    = layer (mat x1) (layer (mat x1) (prod (mat x0) (mat x2)) (mat x3)) (mat x4) := by
  rw [support3, support2, support1]

/-- The shape fact behind the row maximum: dropping the last axis of [10000, 64] leaves [10000]. -/
theorem reduces_last : S10000x64.Reduces [1] S10000 :=
  ⟨Gen.reducesTo_S10000x64_S10000_d1.1, Nat.one_pos, Gen.reducesTo_S10000x64_S10000_d1.2⟩

/-- The host's row maximum, at row p, is the fold of the maximum from its initial value over that row. -/
theorem hostmax_stage (p : Fin 10000) : val_main_v9 (F := Ideal) x0 x1 x2 x3 x4 (ix1 p)
    = (Finset.univ : Finset (Fin 64)).fold max (val_main_cst (F := Ideal) (Shape.Idx.first Gen.h_S_))
        fun k => val_main_v8 (F := Ideal) x0 x1 x2 x3 x4 (ix2 p k) := by
  unfold val_main_v9
  exact hostLastMax_apply _ _ Gen.reducesTo_S10000x64_S10000_d1 reduces_last Gen.h_S_ p

/-- The initial value of the row maximum is the value of the minus-infinity word. -/
theorem init_max : val_main_cst (F := Ideal) (Shape.Idx.first Gen.h_S_) = negInf32 := by
  rw [val_main_cst_apply]; rfl

/-- The vector the row maximum is compared with holds the value of the minus-infinity word. -/
theorem neg_vec (i : S10000.Idx) : val_main_v10 (F := Ideal) i = negInf32 := by
  rw [val_main_v10_apply, val_main_cst_0_apply]; rfl

/-- The row maximum stage, at row p, is the maximum of that row of the last relu stage. -/
theorem rowmax_stage (p : Fin 10000) : val_main_v11 (F := Ideal) x0 x1 x2 x3 x4 (ix1 p)
    = rowMax (mat (val_main_v8 (F := Ideal) x0 x1 x2 x3 x4) p) := by
  rw [val_main_v11_apply, neg_vec, hostmax_stage, init_max]
  exact max_negInf_f32 _

/-- The row maximum repeated along the row: at (p, g) it is the maximum of row p. -/
theorem rowmax_spread (p : Fin 10000) (g : Fin 64) : val_main_v13 (F := Ideal) x0 x1 x2 x3 x4 (ix2 p g)
    = rowMax (mat (val_main_v8 (F := Ideal) x0 x1 x2 x3 x4) p) := by
  have e : idx_main_v12 (idx_main_v13 (ix2 p g)) = ix1 p :=
    funext fun a => Fin.ext (by match a with | ⟨0, _⟩ => rfl)
  rw [val_main_v13_apply, val_main_v12_apply, e, rowmax_stage]

/-- The exponential stage at (p, g): the exponential of the entry less the maximum of its row. -/
theorem exp_stage (p : Fin 10000) (g : Fin 64) : val_main_v15 (F := Ideal) x0 x1 x2 x3 x4 (ix2 p g)
    = Ideal.exp (mat (val_main_v8 (F := Ideal) x0 x1 x2 x3 x4) p g
        - rowMax (mat (val_main_v8 (F := Ideal) x0 x1 x2 x3 x4) p)) := by
  rw [val_main_v15_apply, val_main_v14_apply, rowmax_spread]
  rfl

/-- The row sum stage at row p: the sum of the row's exponentials (it starts from the value of the zero word, 0). -/
theorem sum_stage (p : Fin 10000) : val_main_v16 (F := Ideal) x0 x1 x2 x3 x4 (ix1 p)
    = ∑ k : Fin 64, Ideal.exp (mat (val_main_v8 (F := Ideal) x0 x1 x2 x3 x4) p k
        - rowMax (mat (val_main_v8 (F := Ideal) x0 x1 x2 x3 x4) p)) := by
  rw [val_main_v16_apply, val_main_cst_1_apply]
  show Ideal.ofBits .f32 0x00000000#32 + _ = _
  rw [Ideal.ofBits_zero_f32, zero_add]
  refine Finset.sum_congr rfl fun k _ => ?_
  have e : idx_main_v16 (ix1 p) k = ix2 p k :=
    funext fun a => Fin.ext (by match a with | ⟨0, _⟩ => rfl | ⟨1, _⟩ => rfl)
  rw [e, exp_stage]

/-- The row sum repeated along the row: at (p, g) it is the sum of row p's exponentials. -/
theorem sum_spread (p : Fin 10000) (g : Fin 64) : val_main_v18 (F := Ideal) x0 x1 x2 x3 x4 (ix2 p g)
    = ∑ k : Fin 64, Ideal.exp (mat (val_main_v8 (F := Ideal) x0 x1 x2 x3 x4) p k
        - rowMax (mat (val_main_v8 (F := Ideal) x0 x1 x2 x3 x4) p)) := by
  have e : idx_main_v17 (idx_main_v18 (ix2 p g)) = ix1 p :=
    funext fun a => Fin.ext (by match a with | ⟨0, _⟩ => rfl)
  rw [val_main_v18_apply, val_main_v17_apply, e, sum_stage]

/-- The quotient stage at (p, g) is the softmax of row p of the last relu stage, at g. -/
theorem quotient_stage (p : Fin 10000) (g : Fin 64) : val_main_v19 (F := Ideal) x0 x1 x2 x3 x4 (ix2 p g)
    = softRow (mat (val_main_v8 (F := Ideal) x0 x1 x2 x3 x4) p) g := by
  rw [val_main_v19_apply, exp_stage, sum_spread]
  rfl

end Stages

/-- The reference's result is the network of the specification on the five argument matrices. -/
theorem result_eq (x0 : (⟨S10000x256, .f32⟩ : BufTy).Contents (Elt Ideal))
    (x1 : (⟨S10000x10000, .f32⟩ : BufTy).Contents (Elt Ideal))
    (x2 x3 : (⟨S256x256, .f32⟩ : BufTy).Contents (Elt Ideal))
    (x4 : (⟨S256x64, .f32⟩ : BufTy).Contents (Elt Ideal)) :
    Cert.ReferenceIdeal.Read.val_main_v19 (F := Ideal) x0 x1 x2 x3 x4
      = Cert.GraphConv.arr (Cert.GraphConv.net (Cert.GraphConv.mat x0) (Cert.GraphConv.mat x1)
          (Cert.GraphConv.mat x2) (Cert.GraphConv.mat x3) (Cert.GraphConv.mat x4)) := by
  funext i
  obtain ⟨p, g, rfl⟩ : ∃ (p : Fin 10000) (g : Fin 64), i = ix2 p g := ⟨i 0, i 1, eq_ix2 i⟩
  rw [quotient_stage, hidden3, support3_eq]
  rfl

end Cert.ReferenceIdeal.RefNet

end
-- ==== Proof.lean ====
/-
  The certificate of a three-layer graph convolution kernel against its reference: with X the node features, A the
  dense adjacency matrix and W₁, W₂, W₃ the weights, both programs compute

      softmax_rows (relu (A · S₃)),   S₃ = relu (A · S₂) · W₃,   S₂ = relu (A · S₁) · W₂,   S₁ = X · W₁.

  The kernel is four pallas_calls: one whole-array product for S₁, then three calls that each stream the adjacency
  matrix in bands of 400 rows with the previous support resident, fusing the relu and the next product (or, last, the
  relu and the row softmax) into each band. The reference is a straight line of host operations. Over the extended
  reals a product into a zero accumulator is the plain finite sum whichever unit computes it and whatever the tiling, and
  both programs keep the grouping "adjacency times (features times weights)": entry by entry the two results are the same
  finite sums, maxima, exponentials and quotient, so no algebraic law — and no finiteness of the inputs — is needed.

  The three frames are the generated frame proofs (the reference's is its generated run with the result dropped); the
  idealization rewrote nothing, so its preservation claim is trivial; the algebraic claim puts the kernel's run, with its
  result read through the four calls as the network function of the arguments, beside the reference's run, whose result
  term is the same function.
-/
import proofs.«172856_g53412213293593_cont_9to1_m_1001_2_alg».proof.Defs
import proofs.«172856_g53412213293593_cont_9to1_m_1001_2_alg».proof.Proof.Gen.Kernel
import proofs.«172856_g53412213293593_cont_9to1_m_1001_2_alg».proof.Proof.Gen.Kernel.Frame
import proofs.«172856_g53412213293593_cont_9to1_m_1001_2_alg».proof.Proof.Gen.KernelIdeal
import proofs.«172856_g53412213293593_cont_9to1_m_1001_2_alg».proof.Proof.Gen.KernelIdeal.Frame
import proofs.«172856_g53412213293593_cont_9to1_m_1001_2_alg».proof.Proof.Gen.ReferenceIdeal
import proofs.«172856_g53412213293593_cont_9to1_m_1001_2_alg».proof.Proof.Gen.ReferenceIdeal.Run
import proofs.«172856_g53412213293593_cont_9to1_m_1001_2_alg».proof.Proof.Gen.ReferenceIdeal.Read
import proofs.«172856_g53412213293593_cont_9to1_m_1001_2_alg».proof.Proof.Gen.Pre_finite_inputs
import proofs.«172856_g53412213293593_cont_9to1_m_1001_2_alg».proof.Proof.KernelValue
import proofs.«172856_g53412213293593_cont_9to1_m_1001_2_alg».proof.Proof.RefNet
import Idealize.ShloMosaic.Adequacy
import Idealize.ShloMosaic.Init

noncomputable section

namespace Cert.Proof

open Idealize.ShloMosaic Idealize.SL.Sem Cert.GraphConv

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network of the arguments in their result. -/
theorem algebraic : Cert.algebraic_KernelIdeal_ReferenceIdeal := by
  intro m ρ m' ρ' _ hagree
  refine ⟨_, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2.1, (hagree c).2.2.2.1,
    (hagree c).2.2.2.2]
  exact Cert.ReferenceIdeal.RefNet.result_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
